-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S3200000 32) (main_arg1 : IVec S3200000 32) (main_arg2 : FVec F S3200000 .f32) (main_arg3 : FVec F S100000x64 .f32) (main_arg4 : FVec F S64x64 .f32) (main_arg5 : FVec F S64 .f32) (main_arg6 : FVec F S64x64 .f32) (main_arg7 : FVec F S64 .f32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S50000x128 : Shape := ⟨2, ![50000, 128]⟩
abbrev S64x128 : Shape := ⟨2, ![64, 128]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 43
  | .vmem => 8
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S64x64, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S_, .f32⟩
  | .hbm, ⟨32, _⟩ => ⟨S64x64, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S256x128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S128x128_S128x128_S256x128_d0 : Shape.Concatenates [S128x128, S128x128] S256x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S100000x64, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibQuarterSum.lean ====
/-
  A finite sum over `Fin N` with `N = 4 * n`, taken a quarter at a time, in any commutative monoid:
  the sum of `f` over all of `Fin N` is the sum over `k : Fin n` of `f k`, plus that of `f (n + k)`,
  plus that of `f (2 n + k)`, plus that of `f (3 n + k)`. (A contraction over 256 lanes whose operands are
  laid out as four runs of 64: two nodes packed into one row, two weight matrices stacked.)
-/
import Mathlib.Algebra.BigOperators.Fin
import Mathlib.Logic.Equiv.Fin.Basic

open scoped BigOperators

namespace Cert.QuarterSum

/-- The position `j * n + k` of the `k`-th entry of quarter `j` is below `N = 4 * n`. -/
theorem quarter_lt {n N : ℕ} (hN : N = 4 * n) (j : ℕ) (hj : j < 4) (k : Fin n) : j * n + k.val < N := by
  have hk := k.isLt
  subst hN
  have : j * n + n ≤ 4 * n := by
    have : (j + 1) * n ≤ 4 * n := Nat.mul_le_mul_right n hj
    rw [Nat.add_mul, Nat.one_mul] at this
    exact this
  omega

/-- The `k`-th index of quarter `j` of `Fin N`. -/
def at' {n N : ℕ} (hN : N = 4 * n) (j : ℕ) (hj : j < 4) (k : Fin n) : Fin N := ⟨j * n + k.val, quarter_lt hN j hj k⟩

/-- A sum over `Fin (4 * n)` is the sum of its four quarters. -/
theorem sum_quarters {M : Type*} [AddCommMonoid M] (n N : ℕ) (hN : N = 4 * n) (f : Fin N → M) :
    ∑ c, f c = (∑ k : Fin n, f (at' hN 0 (by decide) k)) + (∑ k : Fin n, f (at' hN 1 (by decide) k))
      + (∑ k : Fin n, f (at' hN 2 (by decide) k)) + (∑ k : Fin n, f (at' hN 3 (by decide) k)) := by
  subst hN
  rw [← finProdFinEquiv.sum_comp, Fintype.sum_prod_type, Fin.sum_univ_four]
  have key : ∀ (j : Fin 4) (k : Fin n), (finProdFinEquiv (j, k) : Fin (4 * n)) = at' rfl j.val j.isLt k :=
    fun j k => Fin.ext (by show k.val + n * j.val = j.val * n + k.val; rw [Nat.mul_comm, Nat.add_comm])
  simp only [key]
  rfl

end Cert.QuarterSum
-- ==== Proof.Layer.lean ====
/-
  The layer this kernel computes, entry by entry over the extended reals, and the law that joins a lane-dense
  evaluation of it to the plain one.

  With `x` the aggregated neighbour features (any array of the node shape), `f` the node features, `W₁ W₂` the two
  weight matrices and `b₁ b₂` the two bias vectors, the entry of node `n` and output channel `o` is

      (Σ_k (f n k + x n k) · W₁ k o + b₁ o) + (Σ_k (x n k · f n k) · W₂ k o + b₂ o).

  A lane-dense evaluation packs nodes `2r` and `2r+1` into one row of 128 lanes, contracts a row of 256 lanes
  (the sums of both nodes, then the products of both nodes) with a 256 × 128 matrix made of two block-diagonal copies
  `[[W,0],[0,W]]` stacked, and adds `b₁ + b₂` once. In the contraction the two off-diagonal quarters are products
  with zero, which vanish on the extended reals whatever the other factor is; what is left is a regrouping of a sum of
  four terms. No finiteness is needed.
-/
import Idealize.ShloMosaic.PureOps.Ideal
import Idealize.ShloMosaic.Lib.ValueIdx
import proofs.«151304_j23098334118568_2_alg».proof.Proof.LibQuarterSum

noncomputable section

open scoped BigOperators

namespace Cert.BiLayer

open Idealize.ShloMosaic Idealize.ShloMosaic.ValueIdx Cert.QuarterSum

/-- The node arrays: 100000 nodes, 64 channels. -/
abbrev Nodes : Shape := ⟨2, ![100000, 64]⟩
/-- A weight matrix, input channel by output channel. -/
abbrev Weights : Shape := ⟨2, ![64, 64]⟩
/-- A bias vector. -/
abbrev Biases : Shape := ⟨1, ![64]⟩

/-- The entry of node `n`, output channel `o`. -/
def entry (x f : Nodes.Idx → EReal) (W₁ : Weights.Idx → EReal) (b₁ : Biases.Idx → EReal) (W₂ : Weights.Idx → EReal)
    (b₂ : Biases.Idx → EReal) (n : Fin 100000) (o : Fin 64) : EReal :=
  ((∑ k : Fin 64, (f (ix2 n k) + x (ix2 n k)) * W₁ (ix2 k o)) + b₁ (ix1 o))
    + ((∑ k : Fin 64, (x (ix2 n k) * f (ix2 n k)) * W₂ (ix2 k o)) + b₂ (ix1 o))

/-- The whole result array. -/
def layer (x f : Nodes.Idx → EReal) (W₁ : Weights.Idx → EReal) (b₁ : Biases.Idx → EReal) (W₂ : Weights.Idx → EReal)
    (b₂ : Biases.Idx → EReal) : Nodes.Idx → EReal :=
  fun i => entry x f W₁ b₁ W₂ b₂ (i 0) (i 1)

/-- THE PACKED ROW. A contraction over 256 lanes whose left factor holds, quarter by quarter, the rows `A 0`, `A 1`,
    `B 0`, `B 1`, and whose right factor holds `U` in the quarter of `A e`, `V` in the quarter of `B e` and zero in the
    other two, plus the two biases added together, is the two contractions each with its own bias. -/
theorem packed_row (A B : Fin 2 → Fin 64 → EReal) (U V : Fin 64 → EReal) (β₁ β₂ : EReal) (e : Fin 2)
    (L R : Fin 256 → EReal)
    (hL0 : ∀ k, L (at' rfl 0 (by decide) k) = A 0 k) (hL1 : ∀ k, L (at' rfl 1 (by decide) k) = A 1 k)
    (hL2 : ∀ k, L (at' rfl 2 (by decide) k) = B 0 k) (hL3 : ∀ k, L (at' rfl 3 (by decide) k) = B 1 k)
    (hR0 : ∀ k, R (at' rfl 0 (by decide) k) = if (0 : Fin 2) = e then U k else 0)
    (hR1 : ∀ k, R (at' rfl 1 (by decide) k) = if (1 : Fin 2) = e then U k else 0)
    (hR2 : ∀ k, R (at' rfl 2 (by decide) k) = if (0 : Fin 2) = e then V k else 0)
    (hR3 : ∀ k, R (at' rfl 3 (by decide) k) = if (1 : Fin 2) = e then V k else 0) :
    (∑ c, L c * R c) + (β₁ + β₂) = ((∑ k, A e k * U k) + β₁) + ((∑ k, B e k * V k) + β₂) := by
  rw [sum_quarters 64 256 rfl]
  simp only [hL0, hL1, hL2, hL3, hR0, hR1, hR2, hR3]
  fin_cases e
  · simp [add_add_add_comm]
  · simp [add_add_add_comm]

end Cert.BiLayer

end
-- ==== Proof.RefLayer.lean ====
/-
  The reference computes the layer.

  Its last eleven operations, read at node `n` and channel `o`, are
  `(Σ_k (f n k + x n k) · W₁ k o + b₁ o) + (Σ_k (x n k · f n k) · W₂ k o + b₂ o)` with `x` its aggregated stage
  (`val_main_v12`: a gather, a product and a scatter-add of the arguments). That stage is exposed by unfolding the
  later stages as whole arrays, replaced by a variable at once, and never read at an index.
-/
import proofs.«151304_j23098334118568_2_alg».proof.Proof.Gen.ReferenceIdeal.Read
import proofs.«151304_j23098334118568_2_alg».proof.Proof.Layer

noncomputable section

open scoped BigOperators

namespace Cert.ReferenceIdeal.RefLayer

open Cert.ReferenceIdeal Cert.ReferenceIdeal.Gen Cert.ReferenceIdeal.Read Idealize.ShloMosaic Idealize.ShloMosaic.ValueIdx

/-- The host's product of a node array with a weight matrix, read at node `n`, channel `o`: the sum over the
    input channels. -/
theorem product_apply (A : S100000x64.Idx → EReal) (W : S64x64.Idx → EReal) (n : Fin 100000) (o : Fin 64) :
    Host.dotGeneral (F := Ideal) (φ₁ := .f32) (φ₂ := .f32) dot_S100000x64_S64x64_S100000x64_1_0_0_1_n_n none A W (ix2 n o)
      = ∑ k : Fin 64, A (ix2 n k) * W (ix2 k o) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n o)
      ((contrEquiv1 dot_S100000x64_S64x64_S100000x64_1_0_0_1_n_n 64 rfl rfl).symm k) = ix2 n k :=
    funext fun a => Fin.ext (by
      match a with
      | ⟨0, _⟩ => exact lhs_main_v14_0 _ _
      | ⟨1, _⟩ => exact (lhs_main_v14_1 _ _).trans hk)
  have er : dot_S100000x64_S64x64_S100000x64_1_0_0_1_n_n.rhsIdx (ix2 n o)
      ((contrEquiv1 dot_S100000x64_S64x64_S100000x64_1_0_0_1_n_n 64 rfl rfl).symm k) = ix2 k o :=
    funext fun a => Fin.ext (by
      match a with
      | ⟨0, _⟩ => exact (rhs_main_v14_0 _ _).trans hk
      | ⟨1, _⟩ => exact rhs_main_v14_1 _ _)
  rw [el, er]

theorem bidx1 (n : Fin 100000) (o : Fin 64) : idx_main_v15 (idx_main_v16 (ix2 n o)) = ix1 o :=
  funext fun a => Fin.ext (by match a with | ⟨0, _⟩ => rfl)
theorem bidx2 (n : Fin 100000) (o : Fin 64) : idx_main_v20 (idx_main_v21 (ix2 n o)) = ix1 o :=
  funext fun a => Fin.ext (by match a with | ⟨0, _⟩ => rfl)

/-- The last stages of any aggregated array `x`: the layer. -/
theorem stages_eq_layer (x x3 : S100000x64.Idx → EReal) (x4 : S64x64.Idx → EReal) (x5 : S64.Idx → EReal)
    (x6 : S64x64.Idx → EReal) (x7 : S64.Idx → EReal) :
    addf (F := Ideal) (φ := .f32)
        (addf (F := Ideal) (φ := .f32)
          (Host.dotGeneral (F := Ideal) (φ₁ := .f32) (φ₂ := .f32) dot_S100000x64_S64x64_S100000x64_1_0_0_1_n_n none
            (addf (F := Ideal) (φ := .f32) x3 x) x4)
          (val_main_v16 (F := Ideal) x5))
        (addf (F := Ideal) (φ := .f32)
          (Host.dotGeneral (F := Ideal) (φ₁ := .f32) (φ₂ := .f32) dot_S100000x64_S64x64_S100000x64_1_0_0_1_n_n none
            (mulf (F := Ideal) (φ := .f32) x x3) x6)
          (val_main_v21 (F := Ideal) x7))
      = Cert.BiLayer.layer x x3 x4 x5 x6 x7 := by
  funext i
  obtain ⟨n, o, rfl⟩ : ∃ (n : Fin 100000) (o : Fin 64), i = ix2 n o := ⟨i 0, i 1, eq_ix2 i⟩
  rw [addf_apply, addf_apply, addf_apply, product_apply, product_apply, val_main_v16_apply, val_main_v15_apply,
    val_main_v21_apply, val_main_v20_apply, bidx1, bidx2]
  rfl

/-- THE REFERENCE'S RESULT is the layer of its aggregated stage and its arguments. -/
theorem reference_eq_layer (x0 x1 : (⟨S3200000, .i32⟩ : BufTy).Contents (Elt Ideal)) (x2 : (⟨S3200000, .f32⟩ : BufTy).Contents (Elt Ideal))
    (x3 : (⟨S100000x64, .f32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v23 (F := Ideal) x0 x1 x2 x3 x4 x5 x6 x7
      = Cert.BiLayer.layer (val_main_v12 (F := Ideal) x0 x1 x2 x3) x3 x4 x5 x6 x7 := by
  unfold val_main_v23 val_main_v17 val_main_v22 val_main_v14 val_main_v19 val_main_v13 val_main_v18
  -- the aggregated stage is carried as one array, never opened
  generalize val_main_v12 (F := Ideal) x0 x1 x2 x3 = x
  exact stages_eq_layer x x3 x4 x5 x6 x7

end Cert.ReferenceIdeal.RefLayer

end
-- ==== Proof.Body.lean ====
/-
  The body's one stored value, read at an entry.

  At a grid point the body holds a block `x₀` of 5000 packed feature rows, the matching block `x₁` of packed
  aggregated rows, the whole 256 × 128 weight matrix `x₂` and the 1 × 128 bias row `x₃`. It stores, at row `p` and
  lane `q`,

      Σ_{c < 256} lhs p c · x₂ c q + x₃ 0 q,

  where the row `lhs p` is the sums `x₀ + x₁` on lanes 0..127 followed by the products `x₁ · x₀` on lanes 128..255.
  On the extended reals the narrowing of both matmul operands is the identity and the accumulator starts from zero.
-/
import proofs.«151304_j23098334118568_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand of the contraction: sums of the two blocks on the first 128 lanes, products on the last 128. -/
def lhs (x0 x1 : Vec Ideal S5000x128 .f32) : FVec Ideal S5000x256 .f32 :=
  concatenate S5000x256 1
    [⟨S5000x128, addf (shapeCast S5000x128 x0 shapeCasts_S5000x128_S5000x128) (shapeCast S5000x128 x1 shapeCasts_S5000x128_S5000x128)⟩,
     ⟨S5000x128, mulf (shapeCast S5000x128 x1 shapeCasts_S5000x128_S5000x128) (shapeCast S5000x128 x0 shapeCasts_S5000x128_S5000x128)⟩]
    concatenates_S5000x128_S5000x128_S5000x256_d1

/-- A lane of the first half reads the sum. -/
theorem lhs_sum (x0 x1 : Vec Ideal S5000x128 .f32) (p : Fin 5000) (c : Fin 256) (l : Fin 128) (h : c.val = l.val) :
    lhs x0 x1 (ix2 p c) = x0 (ix2 p l) + x1 (ix2 p l) := by
  unfold lhs
  refine (concatenate_pair_apply_left (t := S5000x256) (s₁ := S5000x128) (s₂ := S5000x128) (1 : Fin 2) _ _
    concatenates_S5000x128_S5000x128_S5000x256_d1 (ix2 p c) rfl (ix2 p l)
    (fun b => by match b with | ⟨0, _⟩ => rfl | ⟨1, _⟩ => exact h.symm)).trans ?_
  show shapeCast S5000x128 x0 shapeCasts_S5000x128_S5000x128 (ix2 p l) + shapeCast S5000x128 x1 shapeCasts_S5000x128_S5000x128 (ix2 p l) = _
  rw [shapeCast_self x0, shapeCast_self x1]

/-- A lane of the second half reads the product. -/
theorem lhs_prod (x0 x1 : Vec Ideal S5000x128 .f32) (p : Fin 5000) (c : Fin 256) (l : Fin 128) (h : c.val = 128 + l.val) :
    lhs x0 x1 (ix2 p c) = x1 (ix2 p l) * x0 (ix2 p l) := by
  unfold lhs
  refine (concatenate_pair_apply_right (t := S5000x256) (s₁ := S5000x128) (s₂ := S5000x128) (1 : Fin 2) _ _
    concatenates_S5000x128_S5000x128_S5000x256_d1 (ix2 p c) rfl rfl (ix2 p l)
    (fun b hb => by
      match b with
      | ⟨0, _⟩ => rfl
      | ⟨1, _⟩ => exact absurd rfl hb)
    (by show l.val + 128 = c.val; omega)).trans ?_
  show shapeCast S5000x128 x1 shapeCasts_S5000x128_S5000x128 (ix2 p l) * shapeCast S5000x128 x0 shapeCasts_S5000x128_S5000x128 (ix2 p l) = _
  rw [shapeCast_self x0, shapeCast_self x1]

theorem lhs_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_lane (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem rhs_lane (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhs_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The contraction's left index at output `(p, q)` and lane `c` is `(p, c)`. -/
theorem lhsIdx_eq (p : Fin 5000) (q : Fin 128) (c : Fin 256) :
    dot_S5000x256_S256x128_S5000x128_1_0_0_1_n_n.lhsIdx (ix2 p q)
      ((contrEquiv1 dot_S5000x256_S256x128_S5000x128_1_0_0_1_n_n 256 rfl rfl).symm c) = ix2 p c := by
  have hk := contrEquiv1_symm_val dot_S5000x256_S256x128_S5000x128_1_0_0_1_n_n 256 rfl rfl c
  exact funext fun a => Fin.ext (by
    match a with
    | ⟨0, _⟩ => exact lhs_row _ _
    | ⟨1, _⟩ => exact (lhs_lane _ _).trans hk)

/-- The contraction's right index at output `(p, q)` and lane `c` is `(c, q)`. -/
theorem rhsIdx_eq (p : Fin 5000) (q : Fin 128) (c : Fin 256) :
    dot_S5000x256_S256x128_S5000x128_1_0_0_1_n_n.rhsIdx (ix2 p q)
      ((contrEquiv1 dot_S5000x256_S256x128_S5000x128_1_0_0_1_n_n 256 rfl rfl).symm c) = ix2 c q := by
  have hk := contrEquiv1_symm_val dot_S5000x256_S256x128_S5000x128_1_0_0_1_n_n 256 rfl rfl c
  exact funext fun a => Fin.ext (by
    match a with
    | ⟨0, _⟩ => exact (rhs_lane _ _).trans hk
    | ⟨1, _⟩ => exact rhs_col _ _)

/-- The bias row copied down the block reads the row at the lane. -/
theorem bias_apply (x3 : Vec Ideal S1x128 .f32) (p : Fin 5000) (q : Fin 128) :
    broadcastTo S5000x128 x3 broadcasts_S1x128_S5000x128 (ix2 p q) = x3 (ix2 (0 : Fin 1) q) :=
  broadcastTo_apply x3 broadcasts_S1x128_S5000x128 (ix2 p q) (ix2 (0 : Fin 1) q) (fun a => by
    match a with
    | ⟨0, _⟩ => show (0 : ℕ) = if (1 : ℕ) = 1 then 0 else _; rw [if_pos rfl]
    | ⟨1, _⟩ => show q.val = if (128 : ℕ) = 1 then 0 else q.val; rw [if_neg (by decide)])

/-- THE STORED VALUE at row `p`, lane `q`. -/
theorem stored_apply (x0 x1 : Vec Ideal S5000x128 .f32) (x2 : Vec Ideal S256x128 .f32) (x3 : Vec Ideal S1x128 .f32)
    (p : Fin 5000) (q : Fin 128) :
    k0_pay1 x0 x1 x2 x3 (ix2 p q) = (∑ c : Fin 256, lhs x0 x1 (ix2 p c) * x2 (ix2 c q)) + x3 (ix2 (0 : Fin 1) q) := by
  unfold k0_pay1
  simp only [matmul]
  rw [addf_apply, Ideal.matmul_constant_zero_apply, shapeCast_self x3, bias_apply,
    ← Equiv.sum_comp (contrEquiv1 dot_S5000x256_S256x128_S5000x128_1_0_0_1_n_n 256 rfl rfl).symm]
  refine congrArg (· + x3 (ix2 (0 : Fin 1) q)) (Finset.sum_congr rfl fun c _ => ?_)
  rw [lhsIdx_eq, rhsIdx_eq]
  show lhs x0 x1 (ix2 p c) * shapeCast S256x128 x2 shapeCasts_S256x128_S256x128 (ix2 c q) = _
  rw [shapeCast_self x2]

end Cert.KernelIdeal.Body

end
-- ==== Proof.Packed.lean ====
/-
  The packed result, as one function of the four arrays the region reads, and the body's stored value as an entry of it.

      out r q = Σ_{c < 256} row r c · weights c q + bias 0 q,

  `row r` being the sums of the two operand arrays' rows `r` on lanes 0..127 and their products on lanes 128..255.
  A block of 5000 rows whose row `p` is the arrays' row `r` stores, at row `p`, exactly `out r`.
-/
import proofs.«151304_j23098334118568_2_alg».proof.Proof.Body

noncomputable section

open scoped BigOperators

namespace Cert.KernelIdeal.Packed

open Cert.KernelIdeal Cert.KernelIdeal.Gen Idealize.ShloMosaic Idealize.ShloMosaic.ValueIdx

/-- Row `r` of the contraction's left operand, from the two packed operand arrays: sums, then products. -/
def row (A0 A1 : S50000x128.Idx → EReal) (r : Fin 50000) (c : Fin 256) : EReal :=
  if h : c.val < 128 then A0 (ix2 r ⟨c.val, h⟩) + A1 (ix2 r ⟨c.val, h⟩)
  else A1 (ix2 r ⟨c.val - 128, by have := c.isLt; omega⟩) * A0 (ix2 r ⟨c.val - 128, by have := c.isLt; omega⟩)

/-- One entry of the packed result. -/
def outAt (A0 A1 : S50000x128.Idx → EReal) (A2 : S256x128.Idx → EReal) (A3 : S1x128.Idx → EReal)
    (r : Fin 50000) (q : Fin 128) : EReal :=
  (∑ c : Fin 256, row A0 A1 r c * A2 (ix2 c q)) + A3 (ix2 (0 : Fin 1) q)

/-- The packed result array as one function of the four operand arrays. -/
def out (A0 A1 : S50000x128.Idx → EReal) (A2 : S256x128.Idx → EReal) (A3 : S1x128.Idx → EReal) :
    S50000x128.Idx → EReal :=
  fun i => outAt A0 A1 A2 A3 (i 0) (i 1)

/-- The body's left operand at row `p` of a block is the arrays' row `r`, when the blocks' rows `p` are the arrays'
    rows `r`. -/
theorem lhs_eq_row (x0 x1 : Vec Ideal S5000x128 .f32) (A0 A1 : S50000x128.Idx → EReal) (r : Fin 50000) (p : Fin 5000)
    (h0 : ∀ l : Fin 128, x0 (ix2 p l) = A0 (ix2 r l)) (h1 : ∀ l : Fin 128, x1 (ix2 p l) = A1 (ix2 r l)) (k : Fin 256) :
    Body.lhs x0 x1 (ix2 p k) = row A0 A1 r k := by
  unfold row
  by_cases h : k.val < 128
  · rw [dif_pos h, Body.lhs_sum x0 x1 p k ⟨k.val, h⟩ rfl, h0, h1]
  · rw [dif_neg h, Body.lhs_prod x0 x1 p k ⟨k.val - 128, by have := k.isLt; omega⟩
      (by show k.val = 128 + (k.val - 128); omega), h0, h1]

/-- THE STORED VALUE at row `p`, lane `q` of a block is the packed result at row `r`, lane `q`. -/
theorem stored_eq_outAt (x0 x1 : Vec Ideal S5000x128 .f32) (x2 : Vec Ideal S256x128 .f32) (x3 : Vec Ideal S1x128 .f32)
    (A0 A1 : S50000x128.Idx → EReal) (A2 : S256x128.Idx → EReal) (A3 : S1x128.Idx → EReal)
    (r : Fin 50000) (p : Fin 5000) (q : Fin 128)
    (h0 : ∀ l : Fin 128, x0 (ix2 p l) = A0 (ix2 r l)) (h1 : ∀ l : Fin 128, x1 (ix2 p l) = A1 (ix2 r l))
    (h2 : ∀ k : Fin 256, x2 (ix2 k q) = A2 (ix2 k q)) (h3 : x3 (ix2 (0 : Fin 1) q) = A3 (ix2 (0 : Fin 1) q)) :
    k0_pay1 x0 x1 x2 x3 (ix2 p q) = outAt A0 A1 A2 A3 r q := by
  rw [Body.stored_apply x0 x1 x2 x3 p q, h3]
  unfold outAt
  refine congrArg (· + A3 (ix2 (0 : Fin 1) q)) (Finset.sum_congr rfl fun k _ => ?_)
  rw [lhs_eq_row x0 x1 A0 A1 r p h0 h1 k, h2]

end Cert.KernelIdeal.Packed

end
-- ==== Proof.Blocks.lean ====
/-
  From blocks to the array.

  The region's result is an array of 50000 packed rows by 128 lanes, written back in ten blocks of 5000 rows. Grid
  point `t` reads rows `5000 t … 5000 t + 4999` of the packed features and of the packed aggregated features, the
  whole weight matrix and the bias row, and writes the same rows of the result. So the final array is the packed
  result `Packed.out` of the four operand arrays as the region finds them. Every read of a block is stated for an
  arbitrary array first, and only then used at the program's arrays, which are never opened.
-/
import proofs.«151304_j23098334118568_2_alg».proof.Proof.Gen.KernelIdeal.Frame
import proofs.«151304_j23098334118568_2_alg».proof.Proof.Packed
import Idealize.ShloMosaic.Lib.Pipeline.Value
import Idealize.ShloMosaic.Lib.ValueIdx

set_option maxRecDepth 16384

noncomputable section

open scoped BigOperators

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zeros : (![0, 0] : Fin 2 → Nat) = fun _ => 0 := funext fun a => by fin_cases a <;> rfl

/-- The printed index maps over the grid: the row-blocked windows are at block `(t, 0)`, the whole-array windows at
    `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 10 := by
  have h : cfg0.N = 10 := N_0
  have := t.isLt
  omega

/-- Row `p` of point `t`'s block is row `5000 t + p` of the array. -/
def rowOf (t : Fin cfg0.N) (p : Fin 5000) : Fin 50000 :=
  ⟨5000 * t.val + p.val, by have := point_lt t; have := p.isLt; omega⟩

/-! ## A block of any array, read at an entry -/

/-- Window 0's block at point `t` of any array: row `p` is the array's row `5000 t + p`. -/
theorem read_rows0 (A : S50000x128.Idx → EReal) (t : Fin cfg0.N) (p : Fin 5000) (l : Fin 128) :
    ((cfg0.win 0).blk t).view.read (Elt Ideal) A (ix2 p l) = A (ix2 (rowOf t p) l) := by
  show A (((cfg0.win 0).blk t).view.emb (ix2 p l)) = A (ix2 (rowOf t p) l)
  obtain ⟨e0, e1, -⟩ := index_facts t
  have h : ((cfg0.win 0).blk t).view.emb (ix2 p l) = ix2 (rowOf t p) l := by
    funext a; apply Fin.ext
    match a with
    | ⟨0, _⟩ => show win0_0.index t (0 : Fin 2) * 5000 + 1 * p.val = 5000 * t.val + p.val; omega
    | ⟨1, _⟩ => show win0_0.index t (1 : Fin 2) * 128 + 1 * l.val = l.val; omega
  rw [h]

/-- Window 1's block at point `t` of any array: the same rows. -/
theorem read_rows1 (A : S50000x128.Idx → EReal) (t : Fin cfg0.N) (p : Fin 5000) (l : Fin 128) :
    ((cfg0.win 1).blk t).view.read (Elt Ideal) A (ix2 p l) = A (ix2 (rowOf t p) l) := by
  show A (((cfg0.win 1).blk t).view.emb (ix2 p l)) = A (ix2 (rowOf t p) l)
  obtain ⟨-, -, e0, e1, -⟩ := index_facts t
  have h : ((cfg0.win 1).blk t).view.emb (ix2 p l) = ix2 (rowOf t p) l := by
    funext a; apply Fin.ext
    match a with
    | ⟨0, _⟩ => show win0_1.index t (0 : Fin 2) * 5000 + 1 * p.val = 5000 * t.val + p.val; omega
    | ⟨1, _⟩ => show win0_1.index t (1 : Fin 2) * 128 + 1 * l.val = l.val; omega
  rw [h]

/-- Window 2 stages its array whole. -/
theorem read_whole2 (A : S256x128.Idx → EReal) (t : Fin cfg0.N) (k : Fin 256) (q : Fin 128) :
    ((cfg0.win 2).blk t).view.read (Elt Ideal) A (ix2 k q) = A (ix2 k q) := by
  show A (((cfg0.win 2).blk t).view.emb (ix2 k q)) = A (ix2 k q)
  obtain ⟨-, -, -, -, e0, e1, -⟩ := index_facts t
  have h : ((cfg0.win 2).blk t).view.emb (ix2 k q) = ix2 k q := by
    funext a; apply Fin.ext
    match a with
    | ⟨0, _⟩ => show win0_2.index t (0 : Fin 2) * 256 + 1 * k.val = k.val; omega
    | ⟨1, _⟩ => show win0_2.index t (1 : Fin 2) * 128 + 1 * q.val = q.val; omega
  rw [h]

/-- Window 3 stages its array whole. -/
theorem read_whole3 (A : S1x128.Idx → EReal) (t : Fin cfg0.N) (q : Fin 128) :
    ((cfg0.win 3).blk t).view.read (Elt Ideal) A (ix2 (0 : Fin 1) q) = A (ix2 (0 : Fin 1) q) := by
  show A (((cfg0.win 3).blk t).view.emb (ix2 (0 : Fin 1) q)) = A (ix2 (0 : Fin 1) q)
  obtain ⟨-, -, -, -, -, -, e0, e1, -⟩ := index_facts t
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  rw [h]

/-- Window 4's block at point `t`, cut from a staging buffer's contents `Y`, is block `t` of an array `G` as soon
    as row `p` of `Y` is row `5000 t + p` of `G`. -/
theorem write_rows4 (t : Fin cfg0.N) (Y : Vec Ideal S5000x128 .f32) (G : Fin 50000 → Fin 128 → EReal)
    (h : ∀ (p : Fin 5000) (q : Fin 128), Y (ix2 p q) = G (rowOf t p) q) :
    (cfg0.win 4).cut (grid0.coords t) Y
      = ((cfg0.win 4).blk t).view.read (Elt Ideal) (fun i : S50000x128.Idx => G (i 0) (i 1)) := by
  funext j
  obtain ⟨p, q, rfl⟩ : ∃ (p : Fin 5000) (q : Fin 128), j = ix2 p q := ⟨j 0, j 1, eq_ix2 j⟩
  obtain ⟨-, -, -, -, -, -, -, -, e0, e1⟩ := index_facts t
  have he : ((cfg0.win 4).blk t).view.emb (ix2 p q) = ix2 (rowOf t p) q := by
    funext a; apply Fin.ext
    match a with
    | ⟨0, _⟩ => show win0_4.index t (0 : Fin 2) * 5000 + 1 * p.val = 5000 * t.val + p.val; omega
    | ⟨1, _⟩ => show win0_4.index t (1 : Fin 2) * 128 + 1 * q.val = q.val; omega
  show Y (ix2 p q) = (fun i : S50000x128.Idx => G (i 0) (i 1)) (((cfg0.win 4).blk t).view.emb (ix2 p q))
  rw [he]
  exact h p q

/-! ## The program's blocks -/

/-- The packed features' block at a point, read at an entry. -/
theorem feat_block (c : Dev nD) (t : Fin cfg0.N) (p : Fin 5000) (l : Fin 128) :
    iblk m c 0 t (ix2 p l) = V m c main_v13 (ix2 (rowOf t p) l) :=
  read_rows0 (V m c main_v13) t p l

/-- The packed aggregated features' block at a point, read at an entry. -/
theorem agg_block (c : Dev nD) (t : Fin cfg0.N) (p : Fin 5000) (l : Fin 128) :
    iblk m c 1 t (ix2 p l) = V m c main_v14 (ix2 (rowOf t p) l) :=
  read_rows1 (V m c main_v14) t p l

/-- The weight matrix is staged whole. -/
theorem weight_block (c : Dev nD) (t : Fin cfg0.N) (k : Fin 256) (q : Fin 128) :
    iblk m c 2 t (ix2 k q) = V m c main_v23 (ix2 k q) :=
  read_whole2 (V m c main_v23) t k q

/-- The bias row is staged whole. -/
theorem bias_block (c : Dev nD) (t : Fin cfg0.N) (q : Fin 128) :
    iblk m c 3 t (ix2 (0 : Fin 1) q) = V m c main_v27 (ix2 (0 : Fin 1) q) :=
  read_whole3 (V m c main_v27) t q

/-- WHAT POINT `t` WRITES BACK is block `t` of `out` of the operand arrays as the region finds them. -/
theorem flushed_eq (c : Dev nD) (t : Fin cfg0.N) :
    (dats m 0 c).flushed 4 t = ((cfg0.win 4).blk t).view.read (Elt Ideal)
      (out (V m c main_v13) (V m c main_v14) (V m c main_v23) (V m c main_v27)) := by
  show (cfg0.win 4).cut (grid0.coords t) ((dats m 0 c).after 4 t) = _
  rw [after0_4]
  unfold out0_4
  rw [View.canon_unit_zero zeros]
  simp only [View.ld_unit_zero (S := S5000x128) zeros, View.ld_unit_zero (S := S256x128) zeros,
    View.ld_unit_zero (S := S1x128) zeros]
  exact write_rows4 t (k0_pay1 (iblk m c 0 t) (iblk m c 1 t) (iblk m c 2 t) (iblk m c 3 t))
    (outAt (V m c main_v13) (V m c main_v14) (V m c main_v23) (V m c main_v27))
    (fun p q => stored_eq_outAt (iblk m c 0 t) (iblk m c 1 t) (iblk m c 2 t) (iblk m c 3 t)
      (V m c main_v13) (V m c main_v14) (V m c main_v23) (V m c main_v27) (rowOf t p) p q
      (fun l => feat_block m c t p l) (fun l => agg_block m c t p l) (fun k => weight_block m c t k q)
      (bias_block m c t q))

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v28).slice (win0_4.rect t)).set ↔ _
  rw [View.set_slice_whole, Rect.mem_set_unit]
  exact Iff.rfl

/-- Every row of the array is in the block of the point `r / 5000`. -/
theorem cover (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  have hN : cfg0.N = 10 := N_0
  refine ⟨⟨(i 0).val / 5000, by omega⟩, flush0_4 _, ?_⟩
  rw [mem_blk]
  obtain ⟨-, -, -, -, -, -, -, -, e0, e1⟩ := index_facts ⟨(i 0).val / 5000, by omega⟩
  intro a
  match a with
  | ⟨0, _⟩ =>
    show win0_4.index _ (0 : Fin 2) * 5000 ≤ (i 0).val ∧ (i 0).val < win0_4.index _ (0 : Fin 2) * 5000 + 5000
    rw [e0]
    show (i 0).val / 5000 * 5000 ≤ (i 0).val ∧ (i 0).val < (i 0).val / 5000 * 5000 + 5000
    omega
  | ⟨1, _⟩ =>
    show win0_4.index _ (1 : Fin 2) * 128 ≤ (i 1).val ∧ (i 1).val < win0_4.index _ (1 : Fin 2) * 128 + 128
    rw [e1]
    omega

/-- THE ARRAY after the region: `out` of the four operand arrays. -/
theorem final (c : Dev nD) :
    (dats m 0 c).arrAt 4 cfg0.N = out (V m c main_v13) (V m c main_v14) (V m c main_v23) (V m c main_v27) :=
  (dats m 0 c).arrAt_eq_of_cover 4 _ (fun t _ => flushed_eq m c t) cover

end Cert.KernelIdeal.Packed

end
-- ==== Proof.Layouts.lean ====
/-
  The host-side layouts around the region, each read at an entry.

  * Packing: a node array [100000, 64] viewed as [50000, 128] puts node `2r + e`, channel `k` at row `r`, lane
    `64 e + k`; viewing [50000, 128] back as [100000, 64] reads node `n`, channel `o` at row `n / 2`, lane
    `64 (n % 2) + o`.
  * The weights: `[[W, Z], [Z, W]]` built by concatenations (`Z` an all-zero matrix) holds `W k o` at row
    `64 e' + k`, column `64 e + o` when `e' = e`, and zero otherwise; two such stacked hold the first in rows
    0..127 and the second in rows 128..255.
  * The bias row: `concat(b₁, b₁) + concat(b₂, b₂)` laid out as one row holds `b₁ o + b₂ o` at lane `64 e + o`.
-/
import proofs.«151304_j23098334118568_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Layouts

open Cert.KernelIdeal Cert.KernelIdeal.Gen Idealize.ShloMosaic Idealize.ShloMosaic.ValueIdx

/-! ## Packing two nodes into one row -/

/-- Row `r`, lane `64 e + k` of the packed view is node `2 r + e`, channel `k`. -/
theorem packed_apply {α : Type} (A : S100000x64.Idx → α) (r : Fin 50000) (l : Fin 128) (n : Fin 100000) (k : Fin 64)
    (e : ℕ) (hl : l.val = 64 * e + k.val) (hn : n.val = 2 * r.val + e) :
    shapeCast S50000x128 A shapeCasts_S100000x64_S50000x128 (ix2 r l) = A (ix2 n k) :=
  shapeCast_apply A shapeCasts_S100000x64_S50000x128 (ix2 r l) (ix2 n k) (by
    rw [Shape.rowMajor_val_two, Shape.rowMajor_val_two]
    show n.val * 64 + k.val = r.val * 128 + l.val
    omega)

/-- Node `n`, channel `o` of the unpacked view is row `n / 2`, lane `64 (n % 2) + o`. -/
theorem unpacked_apply {α : Type} (B : S50000x128.Idx → α) (n : Fin 100000) (o : Fin 64) (r : Fin 50000) (l : Fin 128)
    (hr : r.val = n.val / 2) (hl : l.val = 64 * (n.val % 2) + o.val) :
    shapeCast S100000x64 B shapeCasts_S50000x128_S100000x64 (ix2 n o) = B (ix2 r l) :=
  shapeCast_apply B shapeCasts_S50000x128_S100000x64 (ix2 n o) (ix2 r l) (by
    rw [Shape.rowMajor_val_two, Shape.rowMajor_val_two]
    show r.val * 128 + l.val = n.val * 64 + o.val
    omega)

/-! ## Two pieces side by side, and one above the other -/

/-- Two 64-column pieces side by side, read at column `64 e + o`. -/
theorem beside_apply {α : Type} (A B : S64x64.Idx → α) (k : Fin 64) (q : Fin 128) (e : Fin 2) (o : Fin 64)
    (hq : q.val = 64 * e.val + o.val) :
    concatenate S64x128 1 [⟨S64x64, A⟩, ⟨S64x64, B⟩] concatenates_S64x64_S64x64_S64x128_d1 (ix2 k q)
      = if e = 0 then A (ix2 k o) else B (ix2 k o) := by
  by_cases he : e = 0
  · rw [if_pos he]
    subst he
    exact concatenate_pair_apply_left (t := S64x128) (s₁ := S64x64) (s₂ := S64x64) (1 : Fin 2) A B
      concatenates_S64x64_S64x64_S64x128_d1 (ix2 k q) rfl (ix2 k o)
      (fun b => by
        match b with
        | ⟨0, _⟩ => rfl
        | ⟨1, _⟩ => show o.val = q.val; simp at hq; omega)
  · rw [if_neg he]
    have h1 : e.val = 1 := by
      have := e.isLt
      have : e.val ≠ 0 := fun h => he (Fin.ext h)
      omega
    exact concatenate_pair_apply_right (t := S64x128) (s₁ := S64x64) (s₂ := S64x64) (1 : Fin 2) A B
      concatenates_S64x64_S64x64_S64x128_d1 (ix2 k q) rfl rfl (ix2 k o)
      (fun b hb => by
        match b with
        | ⟨0, _⟩ => rfl
        | ⟨1, _⟩ => exact absurd rfl hb)
      (by show o.val + 64 = q.val; omega)

/-- Two 64-row pieces one above the other, read at row `64 e' + k`. -/
theorem above_apply {α : Type} (A B : S64x128.Idx → α) (l q : Fin 128) (e' : Fin 2) (k : Fin 64)
    (hl : l.val = 64 * e'.val + k.val) :
    concatenate S128x128 0 [⟨S64x128, A⟩, ⟨S64x128, B⟩] concatenates_S64x128_S64x128_S128x128_d0 (ix2 l q)
      = if e' = 0 then A (ix2 k q) else B (ix2 k q) := by
  by_cases he : e' = 0
  · rw [if_pos he]
    subst he
    exact concatenate_pair_apply_left (t := S128x128) (s₁ := S64x128) (s₂ := S64x128) (0 : Fin 2) A B
      concatenates_S64x128_S64x128_S128x128_d0 (ix2 l q) rfl (ix2 k q)
      (fun b => by
        match b with
        | ⟨0, _⟩ => show k.val = l.val; simp at hl; omega
        | ⟨1, _⟩ => rfl)
  · rw [if_neg he]
    have h1 : e'.val = 1 := by
      have := e'.isLt
      have : e'.val ≠ 0 := fun h => he (Fin.ext h)
      omega
    exact concatenate_pair_apply_right (t := S128x128) (s₁ := S64x128) (s₂ := S64x128) (0 : Fin 2) A B
      concatenates_S64x128_S64x128_S128x128_d0 (ix2 l q) rfl rfl (ix2 k q)
      (fun b hb => by
        match b with
        | ⟨0, _⟩ => exact absurd rfl hb
        | ⟨1, _⟩ => rfl)
      (by show k.val + 64 = l.val; omega)

/-- Two 128-row pieces one above the other, read at row `128 s + l`. -/
theorem stacked_apply {α : Type} (A B : S128x128.Idx → α) (c : Fin 256) (q : Fin 128) (s : Fin 2) (l : Fin 128)
    (hc : c.val = 128 * s.val + l.val) :
    concatenate S256x128 0 [⟨S128x128, A⟩, ⟨S128x128, B⟩] concatenates_S128x128_S128x128_S256x128_d0 (ix2 c q)
      = if s = 0 then A (ix2 l q) else B (ix2 l q) := by
  by_cases hs : s = 0
  · rw [if_pos hs]
    subst hs
    exact concatenate_pair_apply_left (t := S256x128) (s₁ := S128x128) (s₂ := S128x128) (0 : Fin 2) A B
      concatenates_S128x128_S128x128_S256x128_d0 (ix2 c q) rfl (ix2 l q)
      (fun b => by
        match b with
        | ⟨0, _⟩ => show l.val = c.val; simp at hc; omega
        | ⟨1, _⟩ => rfl)
  · rw [if_neg hs]
    have h1 : s.val = 1 := by
      have := s.isLt
      have : s.val ≠ 0 := fun h => hs (Fin.ext h)
      omega
    exact concatenate_pair_apply_right (t := S256x128) (s₁ := S128x128) (s₂ := S128x128) (0 : Fin 2) A B
      concatenates_S128x128_S128x128_S256x128_d0 (ix2 c q) rfl rfl (ix2 l q)
      (fun b hb => by
        match b with
        | ⟨0, _⟩ => exact absurd rfl hb
        | ⟨1, _⟩ => rfl)
      (by show l.val + 128 = c.val; omega)

/-! ## The block-diagonal copy of a weight matrix, and two of them stacked -/

/-- The all-zero 64 × 64 matrix the weights are padded with. -/
def zeroBlock : S64x64.Idx → EReal :=
  broadcastInDim S64x64 ![] bcast_S_S64x64 (constant (F := Ideal) S_ .f32 0x00000000#32)

theorem zeroBlock_apply (i : S64x64.Idx) : zeroBlock i = 0 := by
  unfold zeroBlock
  rw [broadcastInDim_apply _ bcast_S_S64x64 _ i ix0 (fun a => a.elim0)]
  exact Ideal.ofBits_zero_f32

/-- `[[W, Z], [Z, W]]`. -/
def blockDiag {α : Type} (W Z : S64x64.Idx → α) : S128x128.Idx → α :=
  concatenate S128x128 0
    [⟨S64x128, concatenate S64x128 1 [⟨S64x64, W⟩, ⟨S64x64, Z⟩] concatenates_S64x64_S64x64_S64x128_d1⟩,
     ⟨S64x128, concatenate S64x128 1 [⟨S64x64, Z⟩, ⟨S64x64, W⟩] concatenates_S64x64_S64x64_S64x128_d1⟩]
    concatenates_S64x128_S64x128_S128x128_d0

/-- With `Z` zero: `W k o` on the diagonal blocks, zero off them. -/
theorem blockDiag_apply (W Z : S64x64.Idx → EReal) (hZ : ∀ i, Z i = 0) (l q : Fin 128) (e' e : Fin 2) (k o : Fin 64)
    (hl : l.val = 64 * e'.val + k.val) (hq : q.val = 64 * e.val + o.val) :
    blockDiag W Z (ix2 l q) = if e' = e then W (ix2 k o) else 0 := by
  unfold blockDiag
  rw [above_apply _ _ l q e' k hl]
  by_cases h' : e' = 0
  · rw [if_pos h', beside_apply W Z k q e o hq]
    subst h'
    by_cases h : e = 0
    · rw [if_pos h, if_pos h.symm]
    · rw [if_neg h, if_neg (fun x => h x.symm), hZ]
  · rw [if_neg h', beside_apply Z W k q e o hq]
    by_cases h : e = 0
    · rw [if_pos h, if_neg (by rw [h]; exact h'), hZ]
    · rw [if_neg h, if_pos]
      have := e.isLt; have := e'.isLt
      have a : e.val ≠ 0 := fun x => h (Fin.ext x)
      have b : e'.val ≠ 0 := fun x => h' (Fin.ext x)
      exact Fin.ext (by omega)

/-- The two block-diagonal copies stacked: row `128 s + 64 e' + k`, column `64 e + o`. -/
theorem weights_apply (W₁ Z₁ W₂ Z₂ : S64x64.Idx → EReal) (hZ₁ : ∀ i, Z₁ i = 0) (hZ₂ : ∀ i, Z₂ i = 0)
    (c : Fin 256) (q : Fin 128) (s e' e : Fin 2) (k o : Fin 64)
    (hc : c.val = 128 * s.val + (64 * e'.val + k.val)) (hq : q.val = 64 * e.val + o.val) :
    concatenate S256x128 0 [⟨S128x128, blockDiag W₁ Z₁⟩, ⟨S128x128, blockDiag W₂ Z₂⟩]
        concatenates_S128x128_S128x128_S256x128_d0 (ix2 c q)
      = if e' = e then (if s = 0 then W₁ (ix2 k o) else W₂ (ix2 k o)) else 0 := by
  have hl : 64 * e'.val + k.val < 128 := by have := e'.isLt; have := k.isLt; omega
  rw [stacked_apply _ _ c q s ⟨64 * e'.val + k.val, hl⟩ hc]
  by_cases hs : s = 0
  · rw [if_pos hs, if_pos hs, blockDiag_apply W₁ Z₁ hZ₁ _ q e' e k o rfl hq]
  · rw [if_neg hs, if_neg hs, blockDiag_apply W₂ Z₂ hZ₂ _ q e' e k o rfl hq]

/-! ## The bias row -/

/-- A bias vector repeated twice, read at lane `64 e + o`. -/
theorem twice_apply {α : Type} (b : S64.Idx → α) (q : Fin 128) (e : Fin 2) (o : Fin 64) (hq : q.val = 64 * e.val + o.val) :
    concatenate S128 0 [⟨S64, b⟩, ⟨S64, b⟩] concatenates_S64_S64_S128_d0 (ix1 q) = b (ix1 o) := by
  by_cases he : e = 0
  · subst he
    exact concatenate_pair_apply_left (t := S128) (s₁ := S64) (s₂ := S64) (0 : Fin 1) b b
      concatenates_S64_S64_S128_d0 (ix1 q) rfl (ix1 o)
      (fun a => by
        match a with
        | ⟨0, _⟩ => show o.val = q.val; simp at hq; omega)
  · have h1 : e.val = 1 := by
      have := e.isLt
      have : e.val ≠ 0 := fun h => he (Fin.ext h)
      omega
    exact concatenate_pair_apply_right (t := S128) (s₁ := S64) (s₂ := S64) (0 : Fin 1) b b
      concatenates_S64_S64_S128_d0 (ix1 q) rfl rfl (ix1 o)
      (fun a ha => by
        match a with
        | ⟨0, _⟩ => exact absurd rfl ha)
      (by show o.val + 64 = q.val; omega)

/-- The two doubled bias vectors added and laid out as one row: `b₁ o + b₂ o` at lane `64 e + o`. -/
theorem biasRow_apply (b₁ b₂ : S64.Idx → EReal) (q : Fin 128) (e : Fin 2) (o : Fin 64) (hq : q.val = 64 * e.val + o.val) :
    shapeCast S1x128
        (addf (F := Ideal) (φ := .f32) (concatenate S128 0 [⟨S64, b₁⟩, ⟨S64, b₁⟩] concatenates_S64_S64_S128_d0)
          (concatenate S128 0 [⟨S64, b₂⟩, ⟨S64, b₂⟩] concatenates_S64_S64_S128_d0))
        shapeCasts_S128_S1x128 (ix2 (0 : Fin 1) q)
      = b₁ (ix1 o) + b₂ (ix1 o) := by
  rw [shapeCast_apply _ shapeCasts_S128_S1x128 (ix2 (0 : Fin 1) q) (ix1 q) (by
    rw [Shape.rowMajor_val_one, Shape.rowMajor_val_two]
    show q.val = 0 * 128 + q.val
    omega)]
  rw [addf_apply, twice_apply b₁ q e o hq, twice_apply b₂ q e o hq]

end Cert.KernelIdeal.Layouts

end
-- ==== Proof.Operands.lean ====
/-
  The four arrays the region finds, as host operations of the program's arguments.

  Before the region the program computes the aggregated features (a gather of feature rows scaled by the edge
  values and summed into their destination rows: the same operations, word for word, as the reference's), views the
  features and the aggregated features as [50000, 128], builds the 256 × 128 matrix from the two weight matrices and
  zero matrices, and the 1 × 128 row from the two biases. The aggregated features are never opened: they are carried
  as the reference's own stage `val_main_v12` of the arguments.
-/
import proofs.«151304_j23098334118568_2_alg».proof.Proof.Gen.KernelIdeal.Frame
import proofs.«151304_j23098334118568_2_alg».proof.Proof.Gen.ReferenceIdeal.Read
import proofs.«151304_j23098334118568_2_alg».proof.Proof.Layouts
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated neighbour features of the launch memory's arguments. -/
def agg (c : Dev nD) : S100000x64.Idx → EReal :=
  Cert.ReferenceIdeal.Read.val_main_v12 (F := Ideal) (m ((c : Thread nD τ).loc main_arg0)) (m ((c : Thread nD τ).loc main_arg1))
    (m ((c : Thread nD τ).loc main_arg2)) (m ((c : Thread nD τ).loc main_arg3))

/-- The packed features. -/
theorem features_eq (c : Dev nD) :
    (V m c main_v13 : S50000x128.Idx → EReal)
      = shapeCast S50000x128 (m ((c : Thread nD τ).loc main_arg3)) shapeCasts_S100000x64_S50000x128 := by
  show StableHlo.after hostOps0 (fun b => m (c, b)) (Proc.devRef .tc main_v13) = _
  after_results
  rfl

set_option maxHeartbeats 4000000 in
/-- The packed aggregated features. -/
theorem aggregated_eq (c : Dev nD) :
    (V m c main_v14 : S50000x128.Idx → EReal) = shapeCast S50000x128 (agg m c) shapeCasts_S100000x64_S50000x128 := by
  show StableHlo.after hostOps0 (fun b => m (c, b)) (Proc.devRef .tc main_v14) = _
  after_results
  rfl

set_option maxHeartbeats 4000000 in
/-- The stacked block-diagonal weights. -/
theorem weights_eq (c : Dev nD) :
    (V m c main_v23 : S256x128.Idx → EReal)
      = concatenate S256x128 0
          [⟨S128x128, Layouts.blockDiag (m ((c : Thread nD τ).loc main_arg4)) Layouts.zeroBlock⟩,
           ⟨S128x128, Layouts.blockDiag (m ((c : Thread nD τ).loc main_arg6)) Layouts.zeroBlock⟩]
          concatenates_S128x128_S128x128_S256x128_d0 := by
  show StableHlo.after hostOps0 (fun b => m (c, b)) (Proc.devRef .tc main_v23) = _
  after_results
  rfl

set_option maxHeartbeats 4000000 in
/-- The bias row. -/
theorem bias_eq (c : Dev nD) :
    (V m c main_v27 : S1x128.Idx → EReal)
      = shapeCast S1x128
          (addf (F := Ideal) (φ := .f32)
            (concatenate S128 0 [⟨S64, m ((c : Thread nD τ).loc main_arg5)⟩, ⟨S64, m ((c : Thread nD τ).loc main_arg5)⟩] concatenates_S64_S64_S128_d0)
            (concatenate S128 0 [⟨S64, m ((c : Thread nD τ).loc main_arg7)⟩, ⟨S64, m ((c : Thread nD τ).loc main_arg7)⟩] concatenates_S64_S64_S128_d0))
          shapeCasts_S128_S1x128 := by
  show StableHlo.after hostOps0 (fun b => m (c, b)) (Proc.devRef .tc main_v27) = _
  after_results
  rfl

end Cert.KernelIdeal.Operands

end
-- ==== Proof.PackedLayer.lean ====
/-
  The unpacked view of the packed result is the layer.

  Read the packed result at node `n = 2 r + e`, channel `o`: row `r`, lane `64 e + o`. Its contraction over 256
  lanes falls into four runs of 64. On them the left operand holds the sums `f + x` of nodes `2r` and `2r + 1`, then
  the products `x · f` of nodes `2r` and `2r + 1`; the weights hold `W₁ k o` against node `2r + e`'s sums, `W₂ k o`
  against its products, and zero against the other node's. With the bias `b₁ o + b₂ o` this is the layer's entry.
-/
import proofs.«151304_j23098334118568_2_alg».proof.Proof.Packed
import proofs.«151304_j23098334118568_2_alg».proof.Proof.Layouts
import proofs.«151304_j23098334118568_2_alg».proof.Proof.Layer

noncomputable section

open scoped BigOperators

namespace Cert.KernelIdeal.PackedLayer

open Cert.KernelIdeal Cert.KernelIdeal.Gen Idealize.ShloMosaic Idealize.ShloMosaic.ValueIdx Cert.QuarterSum

/-- Node `2 r + e'`: the `e'`-th of the two nodes packed in row `r`. -/
def node (r : Fin 50000) (e' : Fin 2) : Fin 100000 :=
  ⟨2 * r.val + e'.val, by have := r.isLt; have := e'.isLt; omega⟩

/-- A lane of the first half of a packed row holds a node's sum. -/
theorem row_sums (f x : S100000x64.Idx → EReal) (r : Fin 50000) (e' : Fin 2) (k : Fin 64) (c : Fin 256)
    (hc : c.val = 64 * e'.val + k.val) :
    Packed.row (shapeCast S50000x128 f shapeCasts_S100000x64_S50000x128)
        (shapeCast S50000x128 x shapeCasts_S100000x64_S50000x128) r c
      = f (ix2 (node r e') k) + x (ix2 (node r e') k) := by
  have h : c.val < 128 := by have := e'.isLt; have := k.isLt; omega
  unfold Packed.row
  rw [dif_pos h, Layouts.packed_apply f r ⟨c.val, h⟩ (node r e') k e'.val hc rfl,
    Layouts.packed_apply x r ⟨c.val, h⟩ (node r e') k e'.val hc rfl]

/-- A lane of the second half of a packed row holds a node's product. -/
theorem row_prods (f x : S100000x64.Idx → EReal) (r : Fin 50000) (e' : Fin 2) (k : Fin 64) (c : Fin 256)
    (hc : c.val = 128 + (64 * e'.val + k.val)) :
    Packed.row (shapeCast S50000x128 f shapeCasts_S100000x64_S50000x128)
        (shapeCast S50000x128 x shapeCasts_S100000x64_S50000x128) r c
      = x (ix2 (node r e') k) * f (ix2 (node r e') k) := by
  have h : ¬ c.val < 128 := by omega
  have hlt : c.val - 128 < 128 := by have := c.isLt; omega
  unfold Packed.row
  rw [dif_neg h, Layouts.packed_apply f r ⟨c.val - 128, hlt⟩ (node r e') k e'.val (by show c.val - 128 = _; omega) rfl,
    Layouts.packed_apply x r ⟨c.val - 128, hlt⟩ (node r e') k e'.val (by show c.val - 128 = _; omega) rfl]

/-- THE ENTRY: the packed result at row `n / 2`, lane `64 (n % 2) + o` is the layer's entry at node `n`, channel `o`. -/
theorem packed_entry (f x : S100000x64.Idx → EReal) (W₁ W₂ : S64x64.Idx → EReal) (b₁ b₂ : S64.Idx → EReal)
    (n : Fin 100000) (o : Fin 64) (r : Fin 50000) (q : Fin 128) (hr : r.val = n.val / 2)
    (hq : q.val = 64 * (n.val % 2) + o.val) :
    Packed.outAt (shapeCast S50000x128 f shapeCasts_S100000x64_S50000x128)
        (shapeCast S50000x128 x shapeCasts_S100000x64_S50000x128)
        (concatenate S256x128 0
          [⟨S128x128, Layouts.blockDiag W₁ Layouts.zeroBlock⟩, ⟨S128x128, Layouts.blockDiag W₂ Layouts.zeroBlock⟩]
          concatenates_S128x128_S128x128_S256x128_d0)
        (shapeCast S1x128
          (addf (F := Ideal) (φ := .f32) (concatenate S128 0 [⟨S64, b₁⟩, ⟨S64, b₁⟩] concatenates_S64_S64_S128_d0)
            (concatenate S128 0 [⟨S64, b₂⟩, ⟨S64, b₂⟩] concatenates_S64_S64_S128_d0))
          shapeCasts_S128_S1x128) r q
      = Cert.BiLayer.entry x f W₁ b₁ W₂ b₂ n o := by
  have he : n.val % 2 < 2 := Nat.mod_lt _ (by decide)
  have hqe : q.val = 64 * (⟨n.val % 2, he⟩ : Fin 2).val + o.val := hq
  have hn : node r ⟨n.val % 2, he⟩ = n := Fin.ext (by show 2 * r.val + n.val % 2 = n.val; omega)
  unfold Packed.outAt
  rw [Layouts.biasRow_apply b₁ b₂ q ⟨n.val % 2, he⟩ o hqe]
  refine (Cert.BiLayer.packed_row
    (fun e' k => f (ix2 (node r e') k) + x (ix2 (node r e') k))
    (fun e' k => x (ix2 (node r e') k) * f (ix2 (node r e') k))
    (fun k => W₁ (ix2 k o)) (fun k => W₂ (ix2 k o)) (b₁ (ix1 o)) (b₂ (ix1 o)) ⟨n.val % 2, he⟩
    (fun c => Packed.row (shapeCast S50000x128 f shapeCasts_S100000x64_S50000x128)
      (shapeCast S50000x128 x shapeCasts_S100000x64_S50000x128) r c)
    (fun c => concatenate S256x128 0
      [⟨S128x128, Layouts.blockDiag W₁ Layouts.zeroBlock⟩, ⟨S128x128, Layouts.blockDiag W₂ Layouts.zeroBlock⟩]
      concatenates_S128x128_S128x128_S256x128_d0 (ix2 c q))
    (fun k => row_sums f x r 0 k _ (by show 0 * 64 + k.val = 64 * 0 + k.val; omega))
    (fun k => row_sums f x r 1 k _ (by show 1 * 64 + k.val = 64 * 1 + k.val; omega))
    (fun k => row_prods f x r 0 k _ (by show 2 * 64 + k.val = 128 + (64 * 0 + k.val); omega))
    (fun k => row_prods f x r 1 k _ (by show 3 * 64 + k.val = 128 + (64 * 1 + k.val); omega))
    (fun k => (Layouts.weights_apply W₁ Layouts.zeroBlock W₂ Layouts.zeroBlock Layouts.zeroBlock_apply Layouts.zeroBlock_apply
      _ q 0 0 ⟨n.val % 2, he⟩ k o (by show 0 * 64 + k.val = 128 * 0 + (64 * 0 + k.val); omega) hqe).trans
      (by rw [if_pos (show (0 : Fin 2) = 0 from rfl)]))
    (fun k => (Layouts.weights_apply W₁ Layouts.zeroBlock W₂ Layouts.zeroBlock Layouts.zeroBlock_apply Layouts.zeroBlock_apply
      _ q 0 1 ⟨n.val % 2, he⟩ k o (by show 1 * 64 + k.val = 128 * 0 + (64 * 1 + k.val); omega) hqe).trans
      (by rw [if_pos (show (0 : Fin 2) = 0 from rfl)]))
    (fun k => (Layouts.weights_apply W₁ Layouts.zeroBlock W₂ Layouts.zeroBlock Layouts.zeroBlock_apply Layouts.zeroBlock_apply
      _ q 1 0 ⟨n.val % 2, he⟩ k o (by show 2 * 64 + k.val = 128 * 1 + (64 * 0 + k.val); omega) hqe).trans
      (by rw [if_neg (show ¬ (1 : Fin 2) = 0 by decide)]))
    (fun k => (Layouts.weights_apply W₁ Layouts.zeroBlock W₂ Layouts.zeroBlock Layouts.zeroBlock_apply Layouts.zeroBlock_apply
      _ q 1 1 ⟨n.val % 2, he⟩ k o (by show 3 * 64 + k.val = 128 * 1 + (64 * 1 + k.val); omega) hqe).trans
      (by rw [if_neg (show ¬ (1 : Fin 2) = 0 by decide)]))).trans ?_
  beta_reduce
  rw [hn]
  rfl

/-- THE ARRAY: the packed result viewed back as [100000, 64] is the layer. -/
theorem unpacked_eq_layer (f x : S100000x64.Idx → EReal) (W₁ W₂ : S64x64.Idx → EReal) (b₁ b₂ : S64.Idx → EReal) :
    shapeCast S100000x64
        (Packed.out (shapeCast S50000x128 f shapeCasts_S100000x64_S50000x128)
          (shapeCast S50000x128 x shapeCasts_S100000x64_S50000x128)
          (concatenate S256x128 0
            [⟨S128x128, Layouts.blockDiag W₁ Layouts.zeroBlock⟩, ⟨S128x128, Layouts.blockDiag W₂ Layouts.zeroBlock⟩]
            concatenates_S128x128_S128x128_S256x128_d0)
          (shapeCast S1x128
            (addf (F := Ideal) (φ := .f32) (concatenate S128 0 [⟨S64, b₁⟩, ⟨S64, b₁⟩] concatenates_S64_S64_S128_d0)
              (concatenate S128 0 [⟨S64, b₂⟩, ⟨S64, b₂⟩] concatenates_S64_S64_S128_d0))
            shapeCasts_S128_S1x128))
        shapeCasts_S50000x128_S100000x64
      = Cert.BiLayer.layer x f W₁ b₁ W₂ b₂ := by
  funext i
  obtain ⟨n, o, rfl⟩ : ∃ (n : Fin 100000) (o : Fin 64), i = ix2 n o := ⟨i 0, i 1, eq_ix2 i⟩
  have hr : n.val / 2 < 50000 := by have := n.isLt; omega
  have hl : 64 * (n.val % 2) + o.val < 128 := by have := o.isLt; omega
  rw [Layouts.unpacked_apply _ n o ⟨n.val / 2, hr⟩ ⟨64 * (n.val % 2) + o.val, hl⟩ rfl rfl]
  exact packed_entry f x W₁ W₂ b₁ b₂ n o ⟨n.val / 2, hr⟩ ⟨64 * (n.val % 2) + o.val, hl⟩ rfl rfl

end Cert.KernelIdeal.PackedLayer

end
-- ==== Proof.Result.lean ====
/-
  The idealized kernel's result.

  After the region one host operation views the packed result [50000, 128] as [100000, 64]. With the region's array
  the packed result of the four operand arrays (Blocks), those arrays the packed features, the packed aggregated
  features, the stacked block-diagonal weights and the bias row (Operands), and the unpacked view of that packed result
  the layer (PackedLayer), every weakly fair execution of the idealized kernel ends with its result at the layer of
  the aggregated features and the arguments, the arguments unchanged.
-/
import proofs.«151304_j23098334118568_2_alg».proof.Proof.Blocks
import proofs.«151304_j23098334118568_2_alg».proof.Proof.Operands
import proofs.«151304_j23098334118568_2_alg».proof.Proof.PackedLayer
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The layer of the launch memory's arguments. -/
def expected (c : Dev nD) : S100000x64.Idx → EReal :=
  Cert.BiLayer.layer (Operands.agg m c) (m ((c : Thread nD τ).loc main_arg3)) (m ((c : Thread nD τ).loc main_arg4))
    (m ((c : Thread nD τ).loc main_arg5)) (m ((c : Thread nD τ).loc main_arg6)) (m ((c : Thread nD τ).loc main_arg7))

/-- The host operation after the region: the result is the region's array viewed as [100000, 64]. -/
theorem tail_eq (c : Dev nD) (B : S50000x128.Idx → EReal) (hB : (dats m 0 c).arrAt 4 cfg0.N = B) :
    Pipeline.afterTail₀ cfgs (dats m) 0 (V0 m) [hostOps1] c main_v29
      = shapeCast S100000x64 B shapeCasts_S50000x128_S100000x64 := by
  unfold Pipeline.afterTail₀
  show StableHlo.after hostOps1 _ (Proc.devRef .tc main_v29) = _
  after_results
  rw [Pipeline.withArrays_arr spec0 launch0.win.arr_inj c _ _ 4, hB]
  rfl

/-- THE RESULT BUFFER after the run holds the layer. -/
theorem value (c : Dev nD) :
    Pipeline.afterTail₀ cfgs (dats m) 0 (V0 m) [hostOps1] c main_v29 = expected m c :=
  (tail_eq m c _
    ((Packed.final m c).trans
      (congr (congr (congr (congrArg Packed.out (Operands.features_eq m c)) (Operands.aggregated_eq m c))
        (Operands.weights_eq m c)) (Operands.bias_eq m c)))).trans
    (PackedLayer.unpacked_eq_layer _ _ _ _ _ _)

/-- THE RUN: every weakly fair execution of the idealized kernel terminates with its result at the layer and its
    arguments unchanged. -/
theorem run : θ_run defs (onTc (τ := τ) (main (F := Ideal))) ⟨m, fun _ => 0, ρ⟩ (fun r => ∀ c : Dev nD,
      r.2.mem ((c.tc : Thread nD τ).loc main_v29) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v29 (Pipeline.mem_restRefs_of main_v29 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.lean ====
/-
  The certificate of a graph layer: out = (f + x) W₁ + b₁ + (x ∘ f) W₂ + b₂, with x the aggregated neighbour
  features (a gather of feature rows scaled by the edge values and summed into their destination rows).

  The kernel program computes x on the host exactly as the reference does, packs two nodes into one row of 128 lanes,
  and runs one region over ten blocks of 5000 packed rows: each block is the contraction of the row of 256 lanes
  [f + x | x ∘ f] with two block-diagonal copies [[W,0],[0,W]] of the weights stacked, plus the row b₁ + b₂; one host
  operation unpacks the result. At the ideal values both programs end at one function of the arguments, the layer
  (Proof/Layer.lean): the reference by reading its operations one at a time (Proof/RefLayer.lean), the kernel by its
  generated frame run read block by block (Proof/Body.lean, Packed.lean, Blocks.lean), its host operations before and
  after the region (Proof/Layouts.lean, Operands.lean, Result.lean) and the law that a product with zero vanishes and a
  sum of four terms may be regrouped (Proof/Layer.lean, PackedLayer.lean). No finiteness of the inputs is used.
  The three frames are the generated ones; the ideal pass rewrote nothing, so `preserves` is trivial.
-/
import proofs.«151304_j23098334118568_2_alg».proof.Defs
import proofs.«151304_j23098334118568_2_alg».proof.Proof.Gen.Kernel
import proofs.«151304_j23098334118568_2_alg».proof.Proof.Gen.Kernel.Skeleton
import proofs.«151304_j23098334118568_2_alg».proof.Proof.Gen.Kernel.Launch
import proofs.«151304_j23098334118568_2_alg».proof.Proof.Gen.Kernel.Points
import proofs.«151304_j23098334118568_2_alg».proof.Proof.Gen.Kernel.Frame
import proofs.«151304_j23098334118568_2_alg».proof.Proof.Gen.KernelIdeal
import proofs.«151304_j23098334118568_2_alg».proof.Proof.Gen.KernelIdeal.Skeleton
import proofs.«151304_j23098334118568_2_alg».proof.Proof.Gen.KernelIdeal.Launch
import proofs.«151304_j23098334118568_2_alg».proof.Proof.Gen.KernelIdeal.Points
import proofs.«151304_j23098334118568_2_alg».proof.Proof.Gen.KernelIdeal.Frame
import proofs.«151304_j23098334118568_2_alg».proof.Proof.Gen.ReferenceIdeal
import proofs.«151304_j23098334118568_2_alg».proof.Proof.Gen.ReferenceIdeal.Run
import proofs.«151304_j23098334118568_2_alg».proof.Proof.Gen.ReferenceIdeal.Read
import proofs.«151304_j23098334118568_2_alg».proof.Proof.Gen.Pre_finite_inputs
import Idealize.ShloMosaic.Adequacy
import Idealize.ShloMosaic.Init

import proofs.«151304_j23098334118568_2_alg».proof.Proof.RefLayer
import proofs.«151304_j23098334118568_2_alg».proof.Proof.Result

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at the layer of the same arguments. -/
theorem algebraic : Cert.algebraic_KernelIdeal_ReferenceIdeal := by
  intro m ρ m' ρ' _ hagree
  refine ⟨fun c => Cert.KernelIdeal.Result.expected m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v23_eq, Cert.ReferenceIdeal.RefLayer.reference_eq_layer, h0, h1, h2, h3, h4, h5, h6, h7]
  unfold Cert.KernelIdeal.Result.expected Cert.KernelIdeal.Operands.agg
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
